-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S32768 : Shape := ⟨1, ![32768]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S32768 : S_.BroadcastsInDim S32768 (![] : Fin 0 → Fin S32768.rank)
  reducesTo_S32768_S_d0 : S32768.ReducesTo [0] S_
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S32768 .f32) (main_arg2 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  main_v13
-- ==== Kernel.lean ====
abbrev S32768x4096 : Shape := ⟨2, ![32768, 4096]⟩
abbrev S32768 : Shape := ⟨1, ![32768]⟩
abbrev S64x4096 : Shape := ⟨2, ![64, 4096]⟩
abbrev S32768x1 : Shape := ⟨2, ![32768, 1]⟩
abbrev S32768x64 : Shape := ⟨2, ![32768, 64]⟩
abbrev S1024x4096 : Shape := ⟨2, ![1024, 4096]⟩
abbrev S1024x1 : Shape := ⟨2, ![1024, 1]⟩
abbrev S1024x64 : Shape := ⟨2, ![1024, 64]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x4096, .f32⟩
  | .hbm, ⟨1, _⟩ => ⟨S32768, .f32⟩
  | .hbm, ⟨2, _⟩ => ⟨S64x4096, .f32⟩
  | .hbm, ⟨3, _⟩ => ⟨S32768x1, .f32⟩
  | .hbm, ⟨4, _⟩ => ⟨S32768x64, .f32⟩
  | .hbm, ⟨5, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S64x4096, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768_S32768x1 : S32768.ShapeCasts S32768x1
  inb_S1024x4096_S1024x4096_0_0 : ∀ a, (![0, 0] : Fin 2 → Nat) a + S1024x4096.size a ≤ S1024x4096.size a
  h_S1024x4096 : 0 < S1024x4096.numel
  inb_S64x4096_S64x4096_0_0 : ∀ a, (![0, 0] : Fin 2 → Nat) a + S64x4096.size a ≤ S64x4096.size a
  h_S64x4096 : 0 < S64x4096.numel
  reduces_S1024x64_S1024 : S1024x64.Reduces [1] S1024
  shapeCasts_S1024_S1024x1 : S1024.ShapeCasts S1024x1
  broadcasts_S1024x1_S1024x64 : S1024x1.Broadcasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  dot_S1024x4096_S64x4096_S1024x64_1_1_0_0_n_n_wf : DotDims.WF S1024x4096 S64x4096 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .f32 = 32 ∨ (Rect.block (s := S32768x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S32768x64.size a
  hwx0_4 : ∀ i : grid0.Coords, EltTy.bits .f32 = 32 ∨ (Rect.block (s := S32768x64) S1024x64.size (cc0_transform_4 i) (hinb0_4 i)).WholeWords (EltTy.packing .f32)

variable [Facts₀]

def dot_S1024x4096_S64x4096_S1024x64_1_1_0_0_n_n : DotDims S1024x4096 S64x4096 S1024x64 where
  lhsContracting := [1]
  rhsContracting := [1]
  lhsNonContracting := [0]
  rhsNonContracting := [0]
  lhsBatch := []
  rhsBatch := []
  wf := dot_S1024x4096_S64x4096_S1024x64_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S32768 : Shape := ⟨1, ![32768]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768, .f32⟩
  | .hbm, ⟨2, _⟩ => ⟨S64x4096, .f32⟩
  | .hbm, ⟨3, _⟩ => ⟨S4096x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x64, .f32⟩
  | .hbm, ⟨18, _⟩ => ⟨S32768x64, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.RouterSpec.lean ====
/-
  The router's two result arrays as functions of its three argument arrays, on the extended reals.

  For a token `t` (a row of the activations `x`, 4096 wide) and an expert `e` (a row of the weights `w`), the
  logit is the inner product of the two rows. A token's gate for expert `e` is the softmax of its 64 logits at `e`,
  taken the usual stable way (the row's maximum is subtracted before exponentiating), times the token's mask entry.
  Both programs start the row's maximum from the same f32 pattern (that of minus infinity); its value is never
  needed, only that taking the maximum with the starting value once more changes nothing.
-/
import Idealize.ShloMosaic.PureOps.Ideal
import Idealize.ShloMosaic.PureOps.Ideal.Laws
import Idealize.ShloMosaic.Lib.ValueIdx

noncomputable section

open scoped BigOperators

namespace Cert.Router

open Idealize.ShloMosaic Idealize.ShloMosaic.ValueIdx

/-- The value a row's maximum is folded from: what the pattern `0xFF800000` denotes. -/
abbrev floorVal : EReal := Ideal.ofBits .f32 0xFF800000#32

/-- The logit of token `t` for expert `e`: row `t` of `x` against row `e` of `w`. -/
def logit (x : FVec Ideal ⟨2, ![32768, 4096]⟩ .f32) (w : FVec Ideal ⟨2, ![64, 4096]⟩ .f32) (t : Fin 32768) (e : Fin 64) : EReal :=
  ∑ k : Fin 4096, x (ix2 t k) * w (ix2 e k)

/-- The greatest of a row of 64 values, folded from `floorVal`. -/
def rowMax (l : Fin 64 → EReal) : EReal := (Finset.univ : Finset (Fin 64)).fold max floorVal l

/-- The softmax of the row `l` at `e`, times `mk`. -/
def gate (l : Fin 64 → EReal) (mk : EReal) (e : Fin 64) : EReal :=
  Ideal.div (Ideal.exp (l e - rowMax l)) (∑ e' : Fin 64, Ideal.exp (l e' - rowMax l)) * mk

/-- The logits array. -/
def logits (x : FVec Ideal ⟨2, ![32768, 4096]⟩ .f32) (w : FVec Ideal ⟨2, ![64, 4096]⟩ .f32) : FVec Ideal ⟨2, ![32768, 64]⟩ .f32 :=
  fun i => logit x w ⟨(i 0).val, idx2_lt0 i⟩ ⟨(i 1).val, idx2_lt1 i⟩

/-- The gates array: each token's softmax over its logits, times its mask entry. -/
def probs (x : FVec Ideal ⟨2, ![32768, 4096]⟩ .f32) (mask : FVec Ideal ⟨1, ![32768]⟩ .f32) (w : FVec Ideal ⟨2, ![64, 4096]⟩ .f32) :
    FVec Ideal ⟨2, ![32768, 64]⟩ .f32 :=
  fun i => gate (fun e => logit x w ⟨(i 0).val, idx2_lt0 i⟩ e) (mask (ix1 ⟨(i 0).val, idx2_lt0 i⟩)) ⟨(i 1).val, idx2_lt1 i⟩

/-- The logits array at token `t`, expert `e`. -/
theorem logits_ix2 (x : FVec Ideal ⟨2, ![32768, 4096]⟩ .f32) (w : FVec Ideal ⟨2, ![64, 4096]⟩ .f32) (t : Fin 32768) (e : Fin 64) :
    logits x w (ix2 t e) = logit x w t e := rfl

/-- The gates array at token `t`, expert `e`. -/
theorem probs_ix2 (x : FVec Ideal ⟨2, ![32768, 4096]⟩ .f32) (mask : FVec Ideal ⟨1, ![32768]⟩ .f32) (w : FVec Ideal ⟨2, ![64, 4096]⟩ .f32)
    (t : Fin 32768) (e : Fin 64) :
    probs x mask w (ix2 t e) = gate (fun e' => logit x w t e') (mask (ix1 t)) e := rfl

/-- A fold of `max` from a value is at least that value, so the maximum with it again is the fold. -/
theorem max_floor_rowMax (l : Fin 64 → EReal) : max floorVal (rowMax l) = rowMax l :=
  max_eq_right ((Finset.le_fold_max floorVal).mpr (Or.inl le_rfl))

end Cert.Router

end
-- ==== Proof.HostRouter.lean ====
/-
  The reference program's two results are the router's gates and logits.

  Read one operation at a time: the product of the activations with the transposed weights, at (t, e), is the inner
  product of row t of the one with row e of the other; the host's maximum over the experts is a fold of `max` from the
  starting value, and the extra maximum with that same starting value changes nothing; the host's sum of the
  exponentials starts from zero; the mask is broadcast along the experts.
-/
import proofs.«159480_g17343077941498_cont_7to1_743_20_alg».proof.Proof.Gen.ReferenceIdeal.Read
import proofs.«159480_g17343077941498_cont_7to1_743_20_alg».proof.Proof.RouterSpec
import Idealize.ShloMosaic.PureOps.Ideal.Laws
import Idealize.ShloMosaic.PureOps.Reduce

noncomputable section

open scoped BigOperators

namespace Cert.Router.Host

open Cert.ReferenceIdeal Cert.ReferenceIdeal.Gen Cert.ReferenceIdeal.Read
open Idealize.ShloMosaic Idealize.ShloMosaic.ValueIdx

/-- Dropping the expert axis of a [32768, 64] array leaves the tokens. -/
theorem dropExperts : S32768x64.Reduces [1] S32768 := by decide

/-- The index over token `t` with expert `e` inserted is (t, e). -/
theorem lift_eq (t : Fin 32768) (e : Fin 64) : dropExperts.lift (ix1 t) e = ix2 t e :=
  funext fun a => Fin.ext (by match a with | ⟨0, _⟩ => rfl | ⟨1, _⟩ => rfl)

/-- The host's product is the logits array. -/
theorem logits_eq (x0 : (⟨S32768x4096, .f32⟩ : BufTy).Contents (Elt Ideal)) (x2 : (⟨S64x4096, .f32⟩ : BufTy).Contents (Elt Ideal)) :
    val_main_v1 (F := Ideal) x0 x2 = logits x0 x2 := by
  funext i
  obtain ⟨t, e, rfl⟩ : ∃ (t : Fin 32768) (e : Fin 64), i = ix2 t e := ⟨i 0, i 1, eq_ix2 i⟩
  rw [val_main_v1_apply, logits_ix2]
  unfold logit
  refine Finset.sum_congr rfl fun k _ => ?_
  rw [val_main_v0_apply]
  have e1 : lidx_main_v1 (ix2 t e) k = ix2 t k := funext fun a => Fin.ext (by match a with | ⟨0, _⟩ => rfl | ⟨1, _⟩ => rfl)
  have e2 : idx_main_v0 (ridx_main_v1 (ix2 t e) k) = ix2 e k := funext fun a => Fin.ext (by match a with | ⟨0, _⟩ => rfl | ⟨1, _⟩ => rfl)
  rw [e1, e2]

/-- The host's row maximum, after its second maximum with the starting value, is the fold over the token's logits. -/
theorem rowmax_eq (x0 : (⟨S32768x4096, .f32⟩ : BufTy).Contents (Elt Ideal)) (x2 : (⟨S64x4096, .f32⟩ : BufTy).Contents (Elt Ideal)) (t : Fin 32768) :
    val_main_v4 (F := Ideal) x0 x2 (ix1 t) = rowMax (fun e => logit x0 x2 t e) := by
  rw [val_main_v4_apply, val_main_v3_apply, val_main_cst_0_apply]
  unfold val_main_v2
  rw [Host.reduce_eq_fold_single FloatOps.maximumf _ _ reducesTo_S32768x64_S32768_d1 dropExperts h_S_ (ix1 t), logits_eq]
  show max floorVal ((Finset.univ : Finset (Fin 64)).fold max floorVal (fun e : Fin 64 => logits x0 x2 (dropExperts.lift (ix1 t) e))) = _
  have hf : (fun e : Fin 64 => logits x0 x2 (dropExperts.lift (ix1 t) e)) = fun e => logit x0 x2 t e :=
    funext fun e => congrArg (logits x0 x2) (lift_eq t e)
  rw [hf]
  exact max_floor_rowMax _

/-- The exponential the host takes at (t, e): of the logit less the row's maximum. -/
theorem shifted_eq (x0 : (⟨S32768x4096, .f32⟩ : BufTy).Contents (Elt Ideal)) (x2 : (⟨S64x4096, .f32⟩ : BufTy).Contents (Elt Ideal))
    (t : Fin 32768) (e : Fin 64) :
    val_main_v8 (F := Ideal) x0 x2 (ix2 t e) = Ideal.exp (logit x0 x2 t e - rowMax (fun e' => logit x0 x2 t e')) := by
  rw [val_main_v8_apply, val_main_v7_apply, val_main_v6_apply, val_main_v5_apply, logits_eq]
  have e1 : idx_main_v5 (idx_main_v6 (ix2 t e)) = ix1 t := funext fun a => Fin.ext (by match a with | ⟨0, _⟩ => rfl)
  rw [e1, rowmax_eq]
  rfl

/-- The host's sum over the experts, from zero, of those exponentials. -/
theorem denom_eq (x0 : (⟨S32768x4096, .f32⟩ : BufTy).Contents (Elt Ideal)) (x2 : (⟨S64x4096, .f32⟩ : BufTy).Contents (Elt Ideal)) (t : Fin 32768) :
    val_main_v9 (F := Ideal) x0 x2 (ix1 t) = ∑ e' : Fin 64, Ideal.exp (logit x0 x2 t e' - rowMax (fun e'' => logit x0 x2 t e'')) := by
  rw [val_main_v9_apply, val_main_cst_1_apply]
  show Ideal.ofBits .f32 0x00000000#32 + _ = _
  rw [Ideal.ofBits_zero_f32, zero_add]
  refine Finset.sum_congr rfl fun k _ => ?_
  have e1 : idx_main_v9 (ix1 t) k = ix2 t k := funext fun a => Fin.ext (by match a with | ⟨0, _⟩ => rfl | ⟨1, _⟩ => rfl)
  rw [e1, shifted_eq]

/-- The host's first result is the gates array. -/
theorem probs_eq (x0 : (⟨S32768x4096, .f32⟩ : BufTy).Contents (Elt Ideal)) (x1 : (⟨S32768, .f32⟩ : BufTy).Contents (Elt Ideal))
    (x2 : (⟨S64x4096, .f32⟩ : BufTy).Contents (Elt Ideal)) :
    val_main_v15 (F := Ideal) x0 x1 x2 = probs x0 x1 x2 := by
  funext i
  obtain ⟨t, e, rfl⟩ : ∃ (t : Fin 32768) (e : Fin 64), i = ix2 t e := ⟨i 0, i 1, eq_ix2 i⟩
  rw [val_main_v15_apply, val_main_v12_apply, val_main_v11_apply, val_main_v10_apply, val_main_v14_apply, val_main_v13_apply,
    shifted_eq, probs_ix2]
  have e1 : idx_main_v10 (idx_main_v11 (ix2 t e)) = ix1 t := funext fun a => Fin.ext (by match a with | ⟨0, _⟩ => rfl)
  have e2 : idx_main_v13 (idx_main_v14 (ix2 t e)) = ix1 t := funext fun a => Fin.ext (by match a with | ⟨0, _⟩ => rfl)
  rw [e1, e2, denom_eq]
  rfl

end Cert.Router.Host

end
-- ==== Proof.TileRouter.lean ====
/-
  What the kernel body leaves in its two output tiles, entry by entry, for any contents of its three input tiles.

  A tile is 1024 tokens. The product the body takes, at (r, e), is the inner product of row r of the token tile with
  row e of the weights (the accumulator it adds to is the zero splat). The row maximum is a fold of `max` over the 64
  experts from the starting value; the sum of the exponentials is a plain sum over the experts; the maximum and the sum
  are each turned into a column and broadcast back along the experts, so at (r, e) they are read at row r; the mask
  tile is one column, read at row r.
-/
import proofs.«159480_g17343077941498_cont_7to1_743_20_alg».proof.Proof.Gen.KernelIdeal.Value
import proofs.«159480_g17343077941498_cont_7to1_743_20_alg».proof.Proof.RouterSpec
import Idealize.ShloMosaic.PureOps.Ideal.Laws
import Idealize.ShloMosaic.Lib.ValueIdx
import Idealize.ShloMosaic.Lib.Pipeline.Value

noncomputable section

open scoped BigOperators

namespace Cert.Router.Tile

open Cert.KernelIdeal Cert.KernelIdeal.Gen Cert.KernelIdeal.Value
open Idealize.ShloMosaic Idealize.ShloMosaic.ValueIdx

/-- Row `r` of a tile of tokens against row `e` of the weights. -/
def tileLogit (P0 : FVec Ideal S1024x4096 .f32) (P1 : FVec Ideal S64x4096 .f32) (r : Fin 1024) (e : Fin 64) : EReal :=
  ∑ k : Fin 4096, P0 (ix2 r k) * P1 (ix2 e k)

/-! ## The product's operand indices -/

theorem lhs_row (j : S1024x64.Idx) (q : dot_S1024x4096_S64x4096_S1024x64_1_1_0_0_n_n.contr.Idx) :
    (dot_S1024x4096_S64x4096_S1024x64_1_1_0_0_n_n.lhsIdx j q 0).val = (j 0).val := by
  unfold DotDims.lhsIdx
  rw [dif_neg (show ¬(0 : Fin S1024x4096.rank) ∈ dot_S1024x4096_S64x4096_S1024x64_1_1_0_0_n_n.lhsBatch by decide), dif_pos (show (0 : Fin S1024x4096.rank) ∈ dot_S1024x4096_S64x4096_S1024x64_1_1_0_0_n_n.lhsNonContracting by decide)]
  rfl
theorem lhs_col (j : S1024x64.Idx) (q : dot_S1024x4096_S64x4096_S1024x64_1_1_0_0_n_n.contr.Idx) :
    (dot_S1024x4096_S64x4096_S1024x64_1_1_0_0_n_n.lhsIdx j q 1).val = (q ⟨0, by decide⟩).val :=
  dot_S1024x4096_S64x4096_S1024x64_1_1_0_0_n_n.lhsIdx_val_of_single rfl j q
theorem rhs_row (j : S1024x64.Idx) (q : dot_S1024x4096_S64x4096_S1024x64_1_1_0_0_n_n.contr.Idx) :
    (dot_S1024x4096_S64x4096_S1024x64_1_1_0_0_n_n.rhsIdx j q 0).val = (j 1).val := by
  unfold DotDims.rhsIdx
  rw [dif_neg (show ¬(0 : Fin S64x4096.rank) ∈ dot_S1024x4096_S64x4096_S1024x64_1_1_0_0_n_n.rhsBatch by decide), dif_pos (show (0 : Fin S64x4096.rank) ∈ dot_S1024x4096_S64x4096_S1024x64_1_1_0_0_n_n.rhsNonContracting by decide)]
  rfl
theorem rhs_col (j : S1024x64.Idx) (q : dot_S1024x4096_S64x4096_S1024x64_1_1_0_0_n_n.contr.Idx) :
    (dot_S1024x4096_S64x4096_S1024x64_1_1_0_0_n_n.rhsIdx j q 1).val = (q ⟨0, by decide⟩).val :=
  dot_S1024x4096_S64x4096_S1024x64_1_1_0_0_n_n.rhsIdx_val_of_single rfl j q

/-- The body's product at (r, e). -/
theorem pay1_apply (P0 : FVec Ideal S1024x4096 .f32) (P1 : FVec Ideal S64x4096 .f32) (r : Fin 1024) (e : Fin 64) :
    k0_pay1 (F := Ideal) P0 P1 (ix2 r e) = tileLogit P0 P1 r e := by
  unfold k0_pay1 tileLogit
  refine (Ideal.matmul_constant_zero_apply dot_S1024x4096_S64x4096_S1024x64_1_1_0_0_n_n none P0 P1 (ix2 r e)).trans ?_
  rw [← Equiv.sum_comp (contrEquiv1 dot_S1024x4096_S64x4096_S1024x64_1_1_0_0_n_n 4096 rfl rfl).symm]
  refine Finset.sum_congr rfl fun k _ => ?_
  have hk := contrEquiv1_symm_val dot_S1024x4096_S64x4096_S1024x64_1_1_0_0_n_n 4096 rfl rfl k
  have el : dot_S1024x4096_S64x4096_S1024x64_1_1_0_0_n_n.lhsIdx (ix2 r e) ((contrEquiv1 dot_S1024x4096_S64x4096_S1024x64_1_1_0_0_n_n 4096 rfl rfl).symm k) = ix2 r k := funext fun a => Fin.ext (by
    match a with
    | ⟨0, _⟩ => exact lhs_row _ _
    | ⟨1, _⟩ => exact (lhs_col _ _).trans hk)
  have er : dot_S1024x4096_S64x4096_S1024x64_1_1_0_0_n_n.rhsIdx (ix2 r e) ((contrEquiv1 dot_S1024x4096_S64x4096_S1024x64_1_1_0_0_n_n 4096 rfl rfl).symm k) = ix2 e k := funext fun a => Fin.ext (by
    match a with
    | ⟨0, _⟩ => exact rhs_row _ _
    | ⟨1, _⟩ => exact (rhs_col _ _).trans hk)
  rw [el, er]

/-! ## The two reductions over the experts, and the column broadcast -/

/-- The index over row `r` with expert `e` inserted is (r, e). -/
theorem lane_eq (r : Fin 1024) (e : Fin 64) : reduces_S1024x64_S1024.lift (ix1 r) e = ix2 r e :=
  funext fun a => Fin.ext (by match a with | ⟨0, _⟩ => rfl | ⟨1, _⟩ => rfl)

/-- A maximum over the experts from the starting value, at row `r`. -/
theorem max_lanes (v : FVec Ideal S1024x64 .f32) (r : Fin 1024) :
    multiReduction (F := Ideal) .maximumf [1] S1024 v 0xFF800000#32 reduces_S1024x64_S1024 (.inl rfl) rfl (ix1 r)
      = rowMax (fun e => v (ix2 r e)) := by
  refine (Ideal.multiReduction_maximumf_single v 0xFF800000#32 reduces_S1024x64_S1024 (.inl rfl) rfl (ix1 r)).trans ?_
  show (Finset.univ : Finset (Fin 64)).fold max floorVal (fun e : Fin 64 => v (reduces_S1024x64_S1024.lift (ix1 r) e)) = _
  have hf : (fun e : Fin 64 => v (reduces_S1024x64_S1024.lift (ix1 r) e)) = fun e => v (ix2 r e) :=
    funext fun e => congrArg v (lane_eq r e)
  rw [hf]
  rfl

/-- A sum over the experts, at row `r`. -/
theorem sum_lanes (v : FVec Ideal S1024x64 .f32) (r : Fin 1024) :
    multiReduction (F := Ideal) .add [1] S1024 v 0x00000000#32 reduces_S1024x64_S1024 (.inl rfl) rfl (ix1 r)
      = ∑ e : Fin 64, v (ix2 r e) := by
  refine (Ideal.multiReduction_add_single v 0x00000000#32 reduces_S1024x64_S1024 (.inl rfl) rfl (ix1 r)).trans ?_
  show ∑ e : Fin 64, v (reduces_S1024x64_S1024.lift (ix1 r) e) = _
  exact Finset.sum_congr rfl fun e _ => congrArg v (lane_eq r e)

/-- A vector of 1024 row values made a column and broadcast along the experts reads, at (r, e), the value of row r. -/
theorem column_apply {α : Type} (v : S1024.Idx → α) (r : Fin 1024) (e : Fin 64) :
    broadcastTo S1024x64 (shapeCast S1024x1 v shapeCasts_S1024_S1024x1) broadcasts_S1024x1_S1024x64 (ix2 r e) = v (ix1 r) := by
  refine (broadcastTo_apply _ _ (ix2 r e) (ix2 r (0 : Fin 1)) (fun a => match a with
    | ⟨0, _⟩ => by show r.val = (if (1024 : Nat) = 1 then 0 else r.val); rw [if_neg (by decide)]
    | ⟨1, _⟩ => by show 0 = (if (1 : Nat) = 1 then 0 else e.val); rw [if_pos rfl])).trans ?_
  exact shapeCast_apply _ _ (ix2 r (0 : Fin 1)) (ix1 r) (by rw [Shape.rowMajor_val_one, Shape.rowMajor_val_two]; show r.val = r.val * 1 + 0; omega)

/-! ## The tile's rows -/

/-- The row maxima of the tile's logits. -/
abbrev maxv (P0 : FVec Ideal S1024x4096 .f32) (P1 : FVec Ideal S64x4096 .f32) : FVec Ideal S1024 .f32 :=
  multiReduction (F := Ideal) .maximumf [1] S1024 (k0_pay1 P0 P1) 0xFF800000#32 reduces_S1024x64_S1024 (.inl rfl) rfl

/-- The exponentials of the logits less their row's maximum. -/
abbrev shifted (P0 : FVec Ideal S1024x4096 .f32) (P1 : FVec Ideal S64x4096 .f32) : FVec Ideal S1024x64 .f32 :=
  exp (subf (k0_pay1 P0 P1) (broadcastTo S1024x64 (shapeCast S1024x1 (maxv P0 P1) shapeCasts_S1024_S1024x1) broadcasts_S1024x1_S1024x64))

/-- Their row sums. -/
abbrev sumv (P0 : FVec Ideal S1024x4096 .f32) (P1 : FVec Ideal S64x4096 .f32) : FVec Ideal S1024 .f32 :=
  multiReduction (F := Ideal) .add [1] S1024 (shifted P0 P1) 0x00000000#32 reduces_S1024x64_S1024 (.inl rfl) rfl

theorem maxv_at (P0 : FVec Ideal S1024x4096 .f32) (P1 : FVec Ideal S64x4096 .f32) (r : Fin 1024) :
    maxv P0 P1 (ix1 r) = rowMax (fun e => tileLogit P0 P1 r e) :=
  (max_lanes (k0_pay1 P0 P1) r).trans (congrArg rowMax (funext fun e => pay1_apply P0 P1 r e))

theorem shifted_at (P0 : FVec Ideal S1024x4096 .f32) (P1 : FVec Ideal S64x4096 .f32) (r : Fin 1024) (e : Fin 64) :
    shifted P0 P1 (ix2 r e) = Ideal.exp (tileLogit P0 P1 r e - rowMax (fun e' => tileLogit P0 P1 r e')) := by
  show Ideal.exp (k0_pay1 (F := Ideal) P0 P1 (ix2 r e)
    - broadcastTo S1024x64 (shapeCast S1024x1 (maxv P0 P1) shapeCasts_S1024_S1024x1) broadcasts_S1024x1_S1024x64 (ix2 r e)) = _
  rw [pay1_apply, column_apply, maxv_at]

theorem sumv_at (P0 : FVec Ideal S1024x4096 .f32) (P1 : FVec Ideal S64x4096 .f32) (r : Fin 1024) :
    sumv P0 P1 (ix1 r) = ∑ e : Fin 64, Ideal.exp (tileLogit P0 P1 r e - rowMax (fun e' => tileLogit P0 P1 r e')) :=
  (sum_lanes (shifted P0 P1) r).trans (Finset.sum_congr rfl fun e _ => shifted_at P0 P1 r e)

/-- THE GATES TILE at (r, e): the softmax of row r's logits at e, times the mask tile's row r. -/
theorem gates_at (P0 : FVec Ideal S1024x4096 .f32) (P1 : FVec Ideal S64x4096 .f32) (P2 : FVec Ideal S1024x1 .f32) (r : Fin 1024) (e : Fin 64) :
    E3 (F := Ideal) P0 P1 P2 (ix2 r e) = gate (fun e' => tileLogit P0 P1 r e') (P2 (ix2 r (0 : Fin 1))) e := by
  have h0 : ix3_0 (ix2 r e) = ix2 r e := funext fun a => Fin.ext (by match a with | ⟨0, _⟩ => rfl | ⟨1, _⟩ => rfl)
  have h1 : ix3_1 (ix2 r e) = ix1 r := funext fun a => Fin.ext (by match a with | ⟨0, _⟩ => rfl)
  have h2 : ix3_2 (ix2 r e) = ix1 r := funext fun a => Fin.ext (by match a with | ⟨0, _⟩ => rfl)
  have h3 : ix3_3 (ix2 r e) = ix2 r (0 : Fin 1) := funext fun a => Fin.ext (by match a with | ⟨0, _⟩ => rfl | ⟨1, _⟩ => rfl)
  show Ideal.div (Ideal.exp (k0_pay1 (F := Ideal) P0 P1 (ix3_0 (ix2 r e)) - maxv P0 P1 (ix3_1 (ix2 r e)))) (sumv P0 P1 (ix3_2 (ix2 r e)))
    * P2 (ix3_3 (ix2 r e)) = _
  rw [h0, h1, h2, h3, pay1_apply, maxv_at, sumv_at]
  rfl

theorem hz : (![0, 0] : Fin 2 → Nat) = fun _ => 0 := funext fun a => by fin_cases a <;> rfl

/-- The body's one store into the gates tile covers it, so the tile holds the stored value: at (r, e), the gate. -/
theorem pay2_apply (P0 : FVec Ideal S1024x4096 .f32) (P1 : FVec Ideal S64x4096 .f32) (P2 : FVec Ideal S1024x1 .f32) (r : Fin 1024) (e : Fin 64) :
    k0_pay2 (F := Ideal) P0 P1 P2 (ix2 r e) = gate (fun e' => tileLogit P0 P1 r e') (P2 (ix2 r (0 : Fin 1))) e := by
  have h := canon3_eq (F := Ideal) P0 P1 P2 (ix2 r e)
  rw [View.canon_unit_zero hz] at h
  exact h.trans (gates_at P0 P1 P2 r e)

end Cert.Router.Tile

end
-- ==== Proof.TileRows.lean ====
/-
  From tiles to arrays: what the kernel's two result arrays hold after the run.

  The grid has 32 points; point t stages rows 1024 t … 1024 t + 1023 of the activations and of the mask column, the
  whole weights, and writes back rows 1024 t … 1024 t + 1023 of both results. So row r of tile t is token 1024 t + r,
  the tile's gates and logits at (r, e) are the arrays' gates and logits at (1024 t + r, e), and the 32 tiles of
  1024 rows cover all 32768 rows. The mask column the region stages is the mask vector reshaped by the host:
  its entry (n, 0) is the vector's entry n.
-/
import proofs.«159480_g17343077941498_cont_7to1_743_20_alg».proof.Proof.Gen.KernelIdeal.Value
import proofs.«159480_g17343077941498_cont_7to1_743_20_alg».proof.Proof.TileRouter
import Idealize.ShloMosaic.Lib.Pipeline.Value
import Idealize.ShloMosaic.Lib.StableHlo.Run

noncomputable section

open scoped BigOperators

namespace Cert.Router.Rows

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Router Cert.Router.Tile

variable (m : (ℓ : Loc nD τ sig) → Buf (Elt Ideal) ℓ) (ρ : Dev nD → PrngReg)

/-- The printed index maps over the 32 grid points: the token tiles, the mask tiles and both result tiles move down the
    rows with the point; the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The token that row `r` of tile `t` is. -/
def tok (t : Fin cfg0.N) (r : Fin 1024) : Fin 32768 :=
  ⟨t.val * 1024 + r.val, by have h := t.isLt; have hN : cfg0.N = 32 := N_0; omega⟩

/-! ## The input tiles as rows of the arguments -/

/-- Row r of token tile t is row `tok t r` of the activations. -/
theorem tokens_at (c : Dev nD) (t : Fin cfg0.N) (r : Fin 1024) (k : Fin 4096) :
    (iblk m c 0 t : FVec Ideal S1024x4096 .f32) (ix2 r k) = ((m ((c : Thread nD τ).loc main_arg0)) : FVec Ideal S32768x4096 .f32) (ix2 (tok t r) k) := by
  obtain ⟨h0, h1, -⟩ := idx_facts t
  rw [← V_main_arg0 m c]
  show V m c main_arg0 (((cfg0.win 0).blk t).view.emb (ix2 r k)) = V m c main_arg0 (ix2 (tok t r) k)
  refine congrArg (V m c main_arg0) (funext fun a => Fin.ext ?_)
  match a with
  | ⟨0, _⟩ => show win0_0.index t (0 : Fin 2) * 1024 + 1 * r.val = t.val * 1024 + r.val; rw [h0]; omega
  | ⟨1, _⟩ => show win0_0.index t (1 : Fin 2) * 4096 + 1 * k.val = k.val; rw [h1]; omega

/-- Every weights tile is the weights. -/
theorem weights_at (c : Dev nD) (t : Fin cfg0.N) (e : Fin 64) (k : Fin 4096) :
    (iblk m c 2 t : FVec Ideal S64x4096 .f32) (ix2 e k) = ((m ((c : Thread nD τ).loc main_arg2)) : FVec Ideal S64x4096 .f32) (ix2 e k) := by
  obtain ⟨-, -, -, -, h0, h1, -⟩ := idx_facts t
  rw [← V_main_arg2 m c]
  show V m c main_arg2 (((cfg0.win 2).blk t).view.emb (ix2 e k)) = V m c main_arg2 (ix2 e k)
  refine congrArg (V m c main_arg2) (funext fun a => Fin.ext ?_)
  match a with
  | ⟨0, _⟩ => show win0_2.index t (0 : Fin 2) * 64 + 1 * e.val = e.val; rw [h0]; omega
  | ⟨1, _⟩ => show win0_2.index t (1 : Fin 2) * 4096 + 1 * k.val = k.val; rw [h1]; omega

/-- The mask column the region finds is the host's reshape of the mask vector. -/
theorem mask_column (c : Dev nD) :
    (V m c main_v0 : FVec Ideal S32768x1 .f32) = shapeCast S32768x1 (m ((c : Thread nD τ).loc main_arg1)) shapeCasts_S32768_S32768x1 := by
  dsimp only [Gen.V, Gen.hostOps0]
  after_results
  rfl

/-- Row r of mask tile t is entry `tok t r` of the mask vector. -/
theorem mask_at (c : Dev nD) (t : Fin cfg0.N) (r : Fin 1024) :
    (iblk m c 1 t : FVec Ideal S1024x1 .f32) (ix2 r (0 : Fin 1)) = ((m ((c : Thread nD τ).loc main_arg1)) : FVec Ideal S32768 .f32) (ix1 (tok t r)) := by
  obtain ⟨-, -, h0, h1, -⟩ := idx_facts t
  have e1 : (iblk m c 1 t : FVec Ideal S1024x1 .f32) (ix2 r (0 : Fin 1)) = (V m c main_v0 : FVec Ideal S32768x1 .f32) (ix2 (tok t r) (0 : Fin 1)) := by
    show V m c main_v0 (((cfg0.win 1).blk t).view.emb (ix2 r (0 : Fin 1))) = V m c main_v0 (ix2 (tok t r) (0 : Fin 1))
    refine congrArg (V m c main_v0) (funext fun a => Fin.ext ?_)
    match a with
    | ⟨0, _⟩ => show win0_1.index t (0 : Fin 2) * 1024 + 1 * r.val = t.val * 1024 + r.val; rw [h0]; omega
    | ⟨1, _⟩ => show win0_1.index t (1 : Fin 2) * 1 + 1 * 0 = 0; rw [h1]
  rw [e1, mask_column]
  exact shapeCast_apply _ _ (ix2 (tok t r) (0 : Fin 1)) (ix1 (tok t r))
    (by rw [Shape.rowMajor_val_one, Shape.rowMajor_val_two]; show (tok t r).val = (tok t r).val * 1 + 0; omega)

/-- Row r of a result tile t sits at row `tok t r` of the result (the two results have the same index map). -/
theorem gates_emb (t : Fin cfg0.N) (r : Fin 1024) (e : Fin 64) :
    (((cfg0.win 3).blk t).view.emb (ix2 r e) : S32768x64.Idx) = ix2 (tok t r) e := by
  obtain ⟨-, -, -, -, -, -, h0, h1, -⟩ := idx_facts t
  funext a; apply Fin.ext
  match a with
  | ⟨0, _⟩ => show win0_3.index t (0 : Fin 2) * 1024 + 1 * r.val = t.val * 1024 + r.val; rw [h0]; omega
  | ⟨1, _⟩ => show win0_3.index t (1 : Fin 2) * 64 + 1 * e.val = e.val; rw [h1]; omega
theorem logits_emb (t : Fin cfg0.N) (r : Fin 1024) (e : Fin 64) :
    (((cfg0.win 4).blk t).view.emb (ix2 r e) : S32768x64.Idx) = ix2 (tok t r) e := by
  obtain ⟨-, -, -, -, -, -, -, -, h0, h1⟩ := idx_facts t
  funext a; apply Fin.ext
  match a with
  | ⟨0, _⟩ => show win0_4.index t (0 : Fin 2) * 1024 + 1 * r.val = t.val * 1024 + r.val; rw [h0]; omega
  | ⟨1, _⟩ => show win0_4.index t (1 : Fin 2) * 64 + 1 * e.val = e.val; rw [h1]; omega

/-- A tile's logit is the array's logit of that token. -/
theorem tileLogit_eq (c : Dev nD) (t : Fin cfg0.N) (r : Fin 1024) (e : Fin 64) :
    tileLogit (iblk m c 0 t) (iblk m c 2 t) r e = logit (m ((c : Thread nD τ).loc main_arg0)) (m ((c : Thread nD τ).loc main_arg2)) (tok t r) e := by
  unfold tileLogit logit
  exact Finset.sum_congr rfl fun k _ => congrArg₂ (· * ·) (tokens_at m c t r k) (weights_at m c t e k)

/-! ## What each point writes back -/

/-- Point t writes back tile t of the logits array. -/
theorem flushed_logits (c : Dev nD) (t : Fin cfg0.N) :
    (dats m 0 c).flushed 4 t = ((cfg0.win 4).blk t).view.read (Elt Ideal) (logits (m ((c : Thread nD τ).loc main_arg0)) (m ((c : Thread nD τ).loc main_arg2))) := by
  rw [Value.flushed4]
  unfold out0_4
  rw [View.canon_unit_zero hz]
  simp only [View.ld_unit_zero (S := S1024x4096) hz, View.ld_unit_zero (S := S64x4096) hz]
  funext y
  obtain ⟨r, e, rfl⟩ : ∃ (r : Fin 1024) (e : Fin 64), y = ix2 r e := ⟨y 0, y 1, eq_ix2 y⟩
  show k0_pay1 (F := Ideal) (iblk m c 0 t) (iblk m c 2 t) (ix2 r e)
    = logits (m ((c : Thread nD τ).loc main_arg0)) (m ((c : Thread nD τ).loc main_arg2)) (((cfg0.win 4).blk t).view.emb (ix2 r e))
  refine (pay1_apply (iblk m c 0 t) (iblk m c 2 t) r e).trans ?_
  refine ((tileLogit_eq m c t r e).trans (logits_ix2 _ _ (tok t r) e).symm).trans ?_
  exact congrArg (logits (m ((c : Thread nD τ).loc main_arg0)) (m ((c : Thread nD τ).loc main_arg2))) (logits_emb t r e).symm

/-- Point t writes back tile t of the gates array. -/
theorem flushed_gates (c : Dev nD) (t : Fin cfg0.N) :
    (dats m 0 c).flushed 3 t = ((cfg0.win 3).blk t).view.read (Elt Ideal) (probs (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S1024x4096) hz, View.ld_unit_zero (S := S64x4096) hz, View.ld_unit_zero (S := S1024x1) hz]
  funext y
  obtain ⟨r, e, rfl⟩ : ∃ (r : Fin 1024) (e : Fin 64), y = ix2 r e := ⟨y 0, y 1, eq_ix2 y⟩
  show k0_pay2 (F := Ideal) (iblk m c 0 t) (iblk m c 2 t) (iblk m c 1 t) (ix2 r e)
    = probs (m ((c : Thread nD τ).loc main_arg0)) (m ((c : Thread nD τ).loc main_arg1)) (m ((c : Thread nD τ).loc main_arg2)) (((cfg0.win 3).blk t).view.emb (ix2 r e))
  refine (pay2_apply (iblk m c 0 t) (iblk m c 2 t) (iblk m c 1 t) r e).trans ?_
  refine Eq.trans ?_ (congrArg (probs (m ((c : Thread nD τ).loc main_arg0)) (m ((c : Thread nD τ).loc main_arg1)) (m ((c : Thread nD τ).loc main_arg2))) (gates_emb t r e).symm)
  rw [probs_ix2, mask_at m c t r]
  exact congrArg (fun l => gate l ((m ((c : Thread nD τ).loc main_arg1)) (ix1 (tok t r))) e) (funext fun e' => tileLogit_eq m c t r e')

/-! ## The tiles cover the arrays -/

theorem mem_gates_tile (t : Fin cfg0.N) (i : S32768x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1_0).slice (win0_3.rect t)).set ↔ _
  rw [View.set_slice_whole, Rect.mem_set_unit]
  exact Iff.rfl
theorem mem_logits_tile (t : Fin cfg0.N) (i : S32768x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1_1).slice (win0_4.rect t)).set ↔ _
  rw [View.set_slice_whole, Rect.mem_set_unit]
  exact Iff.rfl

/-- Row n is in tile n / 1024. -/
theorem tile_of (i : S32768x64.Idx) : ∃ t : Fin cfg0.N, t.val = (i 0).val / 1024 := by
  have hi0 : (i 0).val < 32768 := (i 0).isLt
  have hN : cfg0.N = 32 := N_0
  exact ⟨⟨(i 0).val / 1024, by omega⟩, rfl⟩

theorem cover_gates (i : S32768x64.Idx) : ∃ t : Fin cfg0.N, (cfg0.win 3).flush t = true ∧ i ∈ ((cfg0.win 3).blk t).view.set := by
  have hi0 : (i 0).val < 32768 := (i 0).isLt
  have hi1 : (i 1).val < 64 := (i 1).isLt
  obtain ⟨t, ht⟩ := tile_of i
  obtain ⟨-, -, -, -, -, -, h0, h1, -⟩ := idx_facts t
  refine ⟨t, flush0_3 t, ?_⟩
  rw [mem_gates_tile]
  intro a
  match a with
  | ⟨0, _⟩ => show win0_3.index t (0 : Fin 2) * 1024 ≤ (i 0).val ∧ (i 0).val < win0_3.index t (0 : Fin 2) * 1024 + 1024; rw [h0, ht]; omega
  | ⟨1, _⟩ => show win0_3.index t (1 : Fin 2) * 64 ≤ (i 1).val ∧ (i 1).val < win0_3.index t (1 : Fin 2) * 64 + 64; rw [h1]; omega

theorem cover_logits (i : S32768x64.Idx) : ∃ t : Fin cfg0.N, (cfg0.win 4).flush t = true ∧ i ∈ ((cfg0.win 4).blk t).view.set := by
  have hi0 : (i 0).val < 32768 := (i 0).isLt
  have hi1 : (i 1).val < 64 := (i 1).isLt
  obtain ⟨t, ht⟩ := tile_of i
  obtain ⟨-, -, -, -, -, -, -, -, h0, h1⟩ := idx_facts t
  refine ⟨t, flush0_4 t, ?_⟩
  rw [mem_logits_tile]
  intro a
  match a with
  | ⟨0, _⟩ => show win0_4.index t (0 : Fin 2) * 1024 ≤ (i 0).val ∧ (i 0).val < win0_4.index t (0 : Fin 2) * 1024 + 1024; rw [h0, ht]; omega
  | ⟨1, _⟩ => show win0_4.index t (1 : Fin 2) * 64 ≤ (i 1).val ∧ (i 1).val < win0_4.index t (1 : Fin 2) * 64 + 64; rw [h1]; omega

/-! ## The arrays after the run -/

theorem final_gates (c : Dev nD) :
    (dats m 0 c).arrAt 3 cfg0.N = probs (m ((c : Thread nD τ).loc main_arg0)) (m ((c : Thread nD τ).loc main_arg1)) (m ((c : Thread nD τ).loc main_arg2)) :=
  (dats m 0 c).arrAt_eq_of_cover 3 (probs (m ((c : Thread nD τ).loc main_arg0)) (m ((c : Thread nD τ).loc main_arg1)) (m ((c : Thread nD τ).loc main_arg2))) (fun t _ => flushed_gates m c t) cover_gates

theorem final_logits (c : Dev nD) :
    (dats m 0 c).arrAt 4 cfg0.N = logits (m ((c : Thread nD τ).loc main_arg0)) (m ((c : Thread nD τ).loc main_arg2)) :=
  (dats m 0 c).arrAt_eq_of_cover 4 (logits (m ((c : Thread nD τ).loc main_arg0)) (m ((c : Thread nD τ).loc main_arg2))) (fun t _ => flushed_logits m c t) cover_logits

/-- The kernel's run, read: the two result arrays are the gates and the logits of the arguments, which are unchanged. -/
theorem run : θ_run defs (onTc (τ := τ) (main (F := Ideal))) ⟨m, fun _ => 0, ρ⟩ fun r => ∀ c : Dev nD,
      r.2.mem ((c : Thread nD τ).loc main_v1_0) = probs (m ((c : Thread nD τ).loc main_arg0)) (m ((c : Thread nD τ).loc main_arg1)) (m ((c : Thread nD τ).loc main_arg2))
      ∧ r.2.mem ((c : Thread nD τ).loc main_v1_1) = logits (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_gates m c), (h c).2.1.trans (final_logits m c), (h c).2.2⟩)
    (Value.run_blocks m ρ)

end Cert.Router.Rows

end
-- ==== Proof.lean ====
/-
  A mixture-of-experts router: for each of 32768 tokens, the logits against 64 experts (the inner products of the
  token's 4096 activations with each expert's weights) and the gates (the softmax of the token's logits, times the
  token's mask entry). The kernel computes both a tile of 1024 tokens at a time; the reference computes them with
  whole-array operations. On the extended reals the two are the same functions of the three arguments:

  * the logits: a product into a zero accumulator is the product; the reference's transpose only renames the index;
  * the row maximum: both fold `max` over the experts from the same starting value, and the reference's second
    maximum with that value changes nothing (a fold of `max` from a value is at least that value);
  * the exponential, the sum from zero, the quotient and the product with the mask are the same operations on both
    sides, element by element.

  No law used needs a finite operand, so the precondition is never opened. `RouterSpec` states the two functions,
  `HostRouter` reads the reference's run as them, `TileRouter` reads the kernel body's two tiles entry by entry,
  `TileRows` puts the 32 tiles together into the arrays; here the claims are assembled.
-/
import proofs.«159480_g17343077941498_cont_7to1_743_20_alg».proof.Defs
import proofs.«159480_g17343077941498_cont_7to1_743_20_alg».proof.Proof.Gen.Kernel
import proofs.«159480_g17343077941498_cont_7to1_743_20_alg».proof.Proof.Gen.Kernel.Skeleton
import proofs.«159480_g17343077941498_cont_7to1_743_20_alg».proof.Proof.Gen.Kernel.Launch
import proofs.«159480_g17343077941498_cont_7to1_743_20_alg».proof.Proof.Gen.Kernel.Points
import proofs.«159480_g17343077941498_cont_7to1_743_20_alg».proof.Proof.Gen.Kernel.Frame
import proofs.«159480_g17343077941498_cont_7to1_743_20_alg».proof.Proof.Gen.KernelIdeal
import proofs.«159480_g17343077941498_cont_7to1_743_20_alg».proof.Proof.Gen.KernelIdeal.Skeleton
import proofs.«159480_g17343077941498_cont_7to1_743_20_alg».proof.Proof.Gen.KernelIdeal.Launch
import proofs.«159480_g17343077941498_cont_7to1_743_20_alg».proof.Proof.Gen.KernelIdeal.Points
import proofs.«159480_g17343077941498_cont_7to1_743_20_alg».proof.Proof.Gen.KernelIdeal.Frame
import proofs.«159480_g17343077941498_cont_7to1_743_20_alg».proof.Proof.Gen.ReferenceIdeal
import proofs.«159480_g17343077941498_cont_7to1_743_20_alg».proof.Proof.Gen.Pre_finite_inputs
import proofs.«159480_g17343077941498_cont_7to1_743_20_alg».proof.Proof.Gen.KernelIdeal.Value
import proofs.«159480_g17343077941498_cont_7to1_743_20_alg».proof.Proof.Gen.ReferenceIdeal.Run
import proofs.«159480_g17343077941498_cont_7to1_743_20_alg».proof.Proof.Gen.ReferenceIdeal.Read
import proofs.«159480_g17343077941498_cont_7to1_743_20_alg».proof.Proof.HostRouter
import proofs.«159480_g17343077941498_cont_7to1_743_20_alg».proof.Proof.TileRows
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten when the kernel was read on the extended reals. -/
theorem preserves : Cert.preserves_Kernel_KernelIdeal := trivial

/-- Both programs end with the gates and the logits of their (agreeing) arguments. -/
theorem algebraic : Cert.algebraic_KernelIdeal_ReferenceIdeal := by
  intro m ρ m' ρ' _ hagree
  refine ⟨_, _, Cert.Router.Rows.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2⟩
  · rw [Cert.ReferenceIdeal.Read.val_main_v15_eq, Cert.Router.Host.probs_eq, (hagree c).1, (hagree c).2.1, (hagree c).2.2]
  · rw [Cert.ReferenceIdeal.Read.val_main_v1_eq, Cert.Router.Host.logits_eq, (hagree c).1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
